-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16384x1024 : Shape := ⟨2, ![16384, 1024]⟩
abbrev S1024x1024 : Shape := ⟨2, ![1024, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩

abbrev nBuf : Space → Nat
  | .hbm => 9
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S1024x1024_S1024_d1 : S1024x1024.ReducesTo [1] S1024
  h_S_ : 0 < S_.numel
  bcast_S1024_S1024x1_0 : S1024.BroadcastsInDim S1024x1 (![0] : Fin 1 → Fin S1024x1.rank)
  shapeCasts_S1024x1_S1x1024 : S1024x1.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1024x1024_S1024_d1 : S1024x1024.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.Score.lean ====
/-
  The similarity score of a sample row against a prototype row, as ONE function of the two argument arrays.

  For a sample `x_i` (row `i` of a [16384, 1024] array) and a prototype `p_j` (row `j` of a [1024, 1024] array),
  with `d = ⟨x_i, p_j⟩`, the score is

      d · d / ((‖x_i‖² + ‖p_j‖² − 2 · d) + ε),

  read on the extended reals: the inner product and the two squared norms are sums over the 1024 shared coordinates,
  `2` and `ε` are the values of two single-precision words, and the quotient is the extended reals' division.
  Both programs compute exactly this expression, with the same grouping, so no law of arithmetic beyond the
  reading of each sum is needed to join them.
-/
import Idealize.ShloMosaic.PureOps.Ideal
import Idealize.ShloMosaic.Lib.ValueIdx

noncomputable section

open scoped BigOperators

namespace Cert.YatScore

open Idealize.ShloMosaic Idealize.ShloMosaic.ValueIdx

/-- The samples: 16384 rows of 1024 coordinates. -/
abbrev Samples : Type := (⟨2, ![16384, 1024]⟩ : Shape).Idx → EReal
/-- The prototypes: 1024 rows of 1024 coordinates. -/
abbrev Protos : Type := (⟨2, ![1024, 1024]⟩ : Shape).Idx → EReal

/-- The inner product of sample `i` with prototype `j`. -/
def inner (x : Samples) (p : Protos) (i : Fin 16384) (j : Fin 1024) : EReal :=
  ∑ k : Fin 1024, x (ix2 i k) * p (ix2 j k)

/-- The squared norm of sample `i`. -/
def sampleSq (x : Samples) (i : Fin 16384) : EReal := ∑ k : Fin 1024, x (ix2 i k) * x (ix2 i k)

/-- The squared norm of prototype `j`. -/
def protoSq (p : Protos) (j : Fin 1024) : EReal := ∑ k : Fin 1024, p (ix2 j k) * p (ix2 j k)

/-- The score from its three ingredients: `d · d / ((sx + sp − 2 · d) + ε)`. -/
def ratio (d sx sp : EReal) : EReal :=
  Ideal.div (d * d) (sx + sp - Ideal.ofBits .f32 0x40000000#32 * d + Ideal.ofBits .f32 0x358637BD#32)

/-- The score of sample `i` against prototype `j`. -/
def score (x : Samples) (p : Protos) (i : Fin 16384) (j : Fin 1024) : EReal :=
  ratio (inner x p i j) (sampleSq x i) (protoSq p j)

/-- The whole [16384, 1024] array of scores. -/
def scores (x : Samples) (p : Protos) : (⟨2, ![16384, 1024]⟩ : Shape).Idx → EReal :=
  fun i => score x p (i 0) (i 1)

theorem scores_apply (x : Samples) (p : Protos) (i : Fin 16384) (j : Fin 1024) :
    scores x p (ix2 i j) = score x p i j := rfl

end Cert.YatScore

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.BodyScore.lean ====
/-
  What the kernel body stores, read at one index of its [1024, 1024] block.

  The body holds a block of 1024 sample rows `x`, all 1024 prototype rows `p` and a row `s` of prototype squared
  norms. At `(a, b)` its matrix product contracts sample row `a` with prototype row `b` over the shared axis; its lane
  sum of `x · x`, kept as a column and spread along the row, is the squared norm of sample row `a`; the row `s`
  spread down the column is `s b`. The stored value is the score's quotient of these three.
-/
import proofs.«144226_j34213709480382_2_alg».proof.Proof.Gen.KernelIdeal.Skeleton
import proofs.«144226_j34213709480382_2_alg».proof.Proof.Score
import proofs.«144226_j34213709480382_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.YatScore.Body

open Cert.KernelIdeal Cert.KernelIdeal.Gen Idealize.ShloMosaic Idealize.ShloMosaic.ValueIdx

/-- The product's left operand is read at the output's row … -/
theorem lhs_row (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
/-- … and at the contracted coordinate; -/
theorem lhs_contr (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
/-- the right operand at the row the output's COLUMN names … -/
theorem rhs_row (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
/-- … and at the contracted coordinate. -/
theorem rhs_contr (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- The body's matrix product into zero contracts row `a` of the left operand with row `b` of the right one. -/
theorem matmul_rows (l r : FVec Ideal S1024x1024 .bf16) (a b : Fin 1024) :
    matmul (F := Ideal) dot_S1024x1024_S1024x1024_S1024x1024_1_1_0_0_n_n none l r (constant S1024x1024 .f32 0x00000000#32) (ix2 a b)
      = ∑ k : Fin 1024, l (ix2 a k) * r (ix2 b k) := by
  refine (Ideal.matmul_constant_zero_apply dot_S1024x1024_S1024x1024_S1024x1024_1_1_0_0_n_n none l r (ix2 a b)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 a b)
      ((contrEquiv1 dot_S1024x1024_S1024x1024_S1024x1024_1_1_0_0_n_n 1024 rfl rfl).symm k) = ix2 a k :=
    funext fun d => Fin.ext (by
      match d with
      | ⟨0, _⟩ => exact lhs_row _ _
      | ⟨1, _⟩ => exact (lhs_contr _ _).trans hk)
  have er : dot_S1024x1024_S1024x1024_S1024x1024_1_1_0_0_n_n.rhsIdx (ix2 a b)
      ((contrEquiv1 dot_S1024x1024_S1024x1024_S1024x1024_1_1_0_0_n_n 1024 rfl rfl).symm k) = ix2 b k :=
    funext fun d => Fin.ext (by
      match d with
      | ⟨0, _⟩ => exact rhs_row _ _
      | ⟨1, _⟩ => exact (rhs_contr _ _).trans hk)
  rw [el, er]

/-- The body's lane sum of a [1024, 1024] value at `a` is the sum along row `a`. -/
theorem rowSum_apply (v : FVec Ideal S1024x1024 .f32) (h : S1024x1024.Reduces [1] S1024) (hφ : FKind.Formats .f32)
    (hacc : (0x00000000#32 : BitVec (FTy.bits .f32)) = FKind.add.neutral .f32 hφ) (a : Fin 1024) :
    multiReduction (F := Ideal) .add [1] S1024 v 0x00000000#32 h hφ hacc (ix1 a) = ∑ k : Fin 1024, v (ix2 a k) := by
  refine (Ideal.multiReduction_add_single v 0x00000000#32 h hφ hacc (ix1 a)).trans ?_
  refine Finset.sum_congr rfl fun k _ => ?_
  exact congrArg v (funext fun d => Fin.ext (by match d with | ⟨0, _⟩ => rfl | ⟨1, _⟩ => rfl))

/-- The inner products: the sample block, its format narrowed, times the prototypes. -/
theorem dots_apply (x : FVec Ideal S1024x1024 .f32) (p : FVec Ideal S1024x1024 .bf16) (hb : FTy.bits .bf16 < FTy.bits .f32)
    (hc : S1024x1024.ShapeCasts S1024x1024) (a b : Fin 1024) :
    matmul (F := Ideal) dot_S1024x1024_S1024x1024_S1024x1024_1_1_0_0_n_n none (truncf .bf16 x hb)
        (shapeCast S1024x1024 p hc) (constant S1024x1024 .f32 0x00000000#32) (ix2 a b)
      = ∑ k : Fin 1024, x (ix2 a k) * p (ix2 b k) := by
  rw [matmul_rows, shapeCast_self]
  rfl

/-- The samples' squared norms, kept as a column and spread along each row. -/
theorem sampleSq_apply (x : FVec Ideal S1024x1024 .f32) (h : S1024x1024.Reduces [1] S1024) (hφ : FKind.Formats .f32)
    (hacc : (0x00000000#32 : BitVec (FTy.bits .f32)) = FKind.add.neutral .f32 hφ) (hc : S1024.ShapeCasts S1024x1)
    (hbc : S1024x1.Broadcasts S1024x1024) (a b : Fin 1024) :
    broadcastTo S1024x1024 (shapeCast S1024x1 (multiReduction (F := Ideal) .add [1] S1024 (mulf x x) 0x00000000#32
        h hφ hacc) hc) hbc (ix2 a b)
      = ∑ k : Fin 1024, x (ix2 a k) * x (ix2 a k) := by
  rw [Keepdims.broadcastTo_a1_ab_apply _ _ a b (0 : Fin 1), Keepdims.shapeCast_a_a1_apply _ _ a (0 : Fin 1), rowSum_apply]
  rfl

/-- The prototypes' squared norms, one row spread down every column. -/
theorem protoSq_apply (s : FVec Ideal S1x1024 .f32) (hc : S1x1024.ShapeCasts S1x1024)
    (hb : S1x1024.Broadcasts S1024x1024) (a b : Fin 1024) :
    broadcastTo S1024x1024 (shapeCast S1x1024 s hc) hb (ix2 a b)
      = s (ix2 (0 : Fin 1) b) := by
  rw [broadcastTo_1b_ab_apply _ _ a b, shapeCast_self]

/-- The body's stored value at `(a, b)`: the score's quotient of the inner product of sample row `a` with prototype
    row `b`, the squared norm of sample row `a`, and entry `b` of the row of prototype squared norms. -/
theorem payload_apply (x : Vec Ideal S1024x1024 .f32) (p : Vec Ideal S1024x1024 .bf16) (s : Vec Ideal S1x1024 .f32) (a b : Fin 1024) :
    k0_pay1 (F := Ideal) x p s (ix2 a b)
      = ratio (∑ k : Fin 1024, x (ix2 a k) * p (ix2 b k)) (∑ k : Fin 1024, x (ix2 a k) * x (ix2 a k)) (s (ix2 (0 : Fin 1) b)) := by
  unfold k0_pay1 ratio
  simp only [divf_apply, mulf_apply, addf_apply, subf_apply, broadcast_apply]
  have hd := dots_apply x p bitsLt_bf16_f32 shapeCasts_S1024x1024_S1024x1024 a b
  refine congrArg₂ Ideal.div (congrArg₂ (· * ·) hd hd) ?_
  refine congrArg₂ (· + ·) (congrArg₂ (· - ·) (congrArg₂ (· + ·) (sampleSq_apply x _ _ _ _ _ a b) (protoSq_apply s _ _ a b))
    (congrArg₂ (· * ·) rfl hd)) rfl

end Cert.YatScore.Body

end
-- ==== Proof.EntryArrays.lean ====
/-
  The two arrays the host prepares before the kernel's region, as functions of the prototype array.

  The kernel's second operand is the prototype array with its float format narrowed, which on the extended reals
  changes nothing. Its third operand is a [1, 1024] row: the prototypes' row sums of squares started from the zero
  word, kept as a [1024, 1] column and re-laid as a row; entry `(0, b)` of the row and entry `(b, 0)` of the column
  have the same row-major position `b`, so it holds the squared norm of prototype `b`.
-/
import proofs.«144226_j34213709480382_2_alg».proof.Proof.Gen.KernelIdeal.Frame
import proofs.«144226_j34213709480382_2_alg».proof.Proof.Score
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.YatScore.Entry

open Cert.KernelIdeal Cert.KernelIdeal.Gen Idealize.ShloMosaic Idealize.ShloMosaic.TcCoe Idealize.ShloMosaic.ValueIdx
open Idealize.SL.Sem

/-- The host's row of squared norms, as a term of the prototype array. -/
def normRow (p : Protos) : S1x1024.Idx → EReal :=
  shapeCast S1x1024 (broadcastInDim S1024x1 ![0] bcast_S1024_S1024x1_0
    (Host.reduceAdd (F := Ideal) (mulf (F := Ideal) (φ := .f32) p p) (constant (F := Ideal) S_ .f32 0x00000000#32)
      reducesTo_S1024x1024_S1024_d1 h_S_)) shapeCasts_S1024x1_S1x1024

/-- Entry `b` of that row is the squared norm of prototype `b`. -/
theorem normRow_apply (p : Protos) (b : Fin 1024) : normRow p (ix2 (0 : Fin 1) b) = protoSq p b := by
  unfold normRow protoSq
  rw [shapeCast_apply _ _ (ix2 (0 : Fin 1) b) (ix2 b (0 : Fin 1)) (by
    rw [Shape.rowMajor_val_two, Shape.rowMajor_val_two]
    show b.val * 1 + 0 = 0 * 1024 + b.val
    omega)]
  rw [broadcastInDim_apply _ bcast_S1024_S1024x1_0 _ (ix2 b (0 : Fin 1)) (ix1 b) (fun a => match a with
    | ⟨0, _⟩ => by show b.val = if (1024 : Nat) = 1 then 0 else b.val; rw [if_neg (by decide)])]
  simp only [Host.reduceAdd, Ideal.hostReduceAdd_def]
  rw [Ideal.hostReduceAdd_single reducesTo_S1024x1024_S1024_d1 reduces_S1024x1024_S1024]
  show Ideal.ofBits .f32 0x00000000#32 + _ = _
  rw [Ideal.ofBits_zero_f32, zero_add]
  refine Finset.sum_congr rfl fun k _ => ?_
  show p _ * p _ = _
  have e : reduces_S1024x1024_S1024.lift (ix1 b) k = ix2 b k :=
    funext fun a => Fin.ext (by match a with | ⟨0, _⟩ => rfl | ⟨1, _⟩ => rfl)
  rw [e]
  rfl

variable (m : (ℓ : Loc nD τ sig) → Buf (Elt Ideal) ℓ)

/-- The region finds the prototypes, format narrowed, in its second operand's array: the same extended reals. -/
theorem protos_entry (c : Dev nD) :
    (V m c main_v0 : S1024x1024.Idx → EReal) = (m ((c : Thread nD τ).loc main_arg1) : S1024x1024.Idx → EReal) := by
  have e : (V m c main_v0 : S1024x1024.Idx → EReal)
      = truncf (F := Ideal) .bf16 (m ((c : Thread nD τ).loc main_arg1)) bitsLt_bf16_f32 := by
    dsimp only [Gen.V, Gen.hostOps0]; after_results
  rw [e]; rfl

/-- The region finds the row of prototype squared norms in its third operand's array. -/
theorem normRow_entry (c : Dev nD) :
    (V m c main_v4 : S1x1024.Idx → EReal) = normRow (m ((c : Thread nD τ).loc main_arg1)) := by
  dsimp only [Gen.V, Gen.hostOps0]; after_results; rfl

end Cert.YatScore.Entry

end
-- ==== Proof.KernelScore.lean ====
/-
  The kernel's result array is the score array.

  The grid has 16 points. Point `t` holds sample rows `1024 t … 1024 t + 1023` (block `t` of the sample array), the
  whole prototype array and the whole row of prototype squared norms, and writes back block `t` of the result: rows
  `1024 t … 1024 t + 1023`, all 1024 columns. What it writes at `(a, b)` of the block is the score of sample
  `1024 t + a` against prototype `b`. Every row `r` of the result lies in the block of point `r / 1024`, so the 16 blocks
  cover the array and it ends holding the scores.
-/
import proofs.«144226_j34213709480382_2_alg».proof.Proof.Gen.KernelIdeal.Value
import proofs.«144226_j34213709480382_2_alg».proof.Proof.BodyScore
import proofs.«144226_j34213709480382_2_alg».proof.Proof.EntryArrays

noncomputable section

open scoped BigOperators

namespace Cert.YatScore.Kernel

open Cert.KernelIdeal Cert.KernelIdeal.Gen Idealize.ShloMosaic Idealize.ShloMosaic.TcCoe Idealize.ShloMosaic.ValueIdx
open Idealize.SL.Sem
open Idealize.ShloMosaic.Pipeline (Dat)

/-- One point's stored value from what its three loaded blocks hold: if the sample block's row `a` is row `row a` of
    the samples, the prototype block is the prototypes and the norm row holds the prototypes' squared norms, then
    entry `(a, b)` is the score of sample `row a` against prototype `b`. -/
theorem point_value (x : Vec Ideal S1024x1024 .f32) (p : Vec Ideal S1024x1024 .bf16) (s : Vec Ideal S1x1024 .f32)
    (X : Samples) (Pr : Protos) (row : Fin 1024 → Fin 16384)
    (hx : ∀ a k : Fin 1024, x (ix2 a k) = X (ix2 (row a) k))
    (hp : ∀ b k : Fin 1024, p (ix2 b k) = Pr (ix2 b k))
    (hs : ∀ b : Fin 1024, s (ix2 (0 : Fin 1) b) = protoSq Pr b) (a b : Fin 1024) :
    k0_pay1 (F := Ideal) x p s (ix2 a b) = score X Pr (row a) b := by
  rw [Body.payload_apply, hs]
  unfold score inner sampleSq
  simp only [hx, hp]

/-- The same at any index of the block and any index of the array with matching coordinates. -/
theorem point_value_at (x : Vec Ideal S1024x1024 .f32) (p : Vec Ideal S1024x1024 .bf16) (s : Vec Ideal S1x1024 .f32)
    (X : Samples) (Pr : Protos) (row : Fin 1024 → Fin 16384)
    (hx : ∀ a k : Fin 1024, x (ix2 a k) = X (ix2 (row a) k))
    (hp : ∀ b k : Fin 1024, p (ix2 b k) = Pr (ix2 b k))
    (hs : ∀ b : Fin 1024, s (ix2 (0 : Fin 1) b) = protoSq Pr b)
    (y : S1024x1024.Idx) (i : S16384x1024.Idx) (h0 : (i 0).val = (row (y 0)).val) (h1 : (i 1).val = (y 1).val) :
    k0_pay1 (F := Ideal) x p s y = scores X Pr i := by
  obtain ⟨a, b, rfl⟩ : ∃ (a b : Fin 1024), y = ix2 a b := ⟨y 0, y 1, eq_ix2 y⟩
  obtain ⟨i0, i1, rfl⟩ : ∃ (i0 : Fin 16384) (i1 : Fin 1024), i = ix2 i0 i1 := ⟨i 0, i 1, eq_ix2 i⟩
  have e0 : i0 = row a := Fin.ext h0
  have e1 : b = i1 := (Fin.ext h1).symm
  subst e0 e1
  rw [scores_apply]
  exact point_value x p s X Pr row hx hp hs a b

variable (m : (ℓ : Loc nD τ sig) → Buf (Elt Ideal) ℓ) (ρ : Dev nD → PrngReg)

theorem origin : (![0, 0] : Fin 2 → Nat) = fun _ => 0 := funext fun a => by fin_cases a <;> rfl

/-- The printed index maps, decided over the 16 points: the sample window and the result window sit at block
    `(t, 0)`, the prototype window and the norm-row window at block `(0, 0)`. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The sample row that row `a` of point `t`'s block is. -/
def rowOf (t : Fin cfg0.N) (a : Fin 1024) : Fin 16384 :=
  ⟨t.val * 1024 + a.val, by have hN : grid0.N = 16 := N_0; have ht : t.val < grid0.N := t.isLt; have := a.isLt; omega⟩

/-- WHAT POINT `t` WRITES BACK is block `t` of the score array of the two arguments. -/
theorem flushed_eq (c : Dev nD) (t : Fin cfg0.N) :
    (dats m 0 c).flushed 3 t = ((cfg0.win 3).blk t).view.read (Elt Ideal)
      (scores (m ((c : Thread nD τ).loc main_arg0)) (m ((c : Thread nD τ).loc main_arg1))) := by
  rw [Value.flushed3]
  unfold out0_3
  rw [View.canon_unit_zero origin]
  simp only [View.ld_unit_zero (S := S1024x1024) origin, View.ld_unit_zero (S := S1x1024) origin]
  obtain ⟨e00, e01, e10, e11, e20, e21, e30, e31⟩ := index_facts t
  funext y
  show k0_pay1 (F := Ideal) (iblk m c 0 t) (iblk m c 1 t) (iblk m c 2 t) y
    = scores (m ((c : Thread nD τ).loc main_arg0)) (m ((c : Thread nD τ).loc main_arg1)) (((cfg0.win 3).blk t).view.emb y)
  refine point_value_at _ _ _ _ _ (rowOf t) ?_ ?_ ?_ y _ ?_ ?_
  · intro a k
    show V m c main_arg0 (((cfg0.win 0).blk t).view.emb (ix2 a k)) = _
    rw [V_main_arg0]
    refine congrArg _ (funext fun d => Fin.ext ?_)
    match d with
    | ⟨0, _⟩ => show win0_0.index t (0 : Fin 2) * 1024 + 1 * a.val = t.val * 1024 + a.val; omega
    | ⟨1, _⟩ => show win0_0.index t (1 : Fin 2) * 1024 + 1 * k.val = k.val; omega
  · intro b k
    show V m c main_v0 (((cfg0.win 1).blk t).view.emb (ix2 b k)) = _
    rw [Entry.protos_entry]
    refine congrArg _ (funext fun d => Fin.ext ?_)
    match d with
    | ⟨0, _⟩ => show win0_1.index t (0 : Fin 2) * 1024 + 1 * b.val = b.val; omega
    | ⟨1, _⟩ => show win0_1.index t (1 : Fin 2) * 1024 + 1 * k.val = k.val; omega
  · intro b
    show V m c main_v4 (((cfg0.win 2).blk t).view.emb (ix2 (0 : Fin 1) b)) = _
    rw [Entry.normRow_entry, ← Entry.normRow_apply]
    refine congrArg _ (funext fun d => Fin.ext ?_)
    match d with
    | ⟨0, _⟩ => show win0_2.index t (0 : Fin 2) * 1 + 1 * 0 = 0; omega
    | ⟨1, _⟩ => show win0_2.index t (1 : Fin 2) * 1024 + 1 * b.val = b.val; omega
  · show win0_3.index t (0 : Fin 2) * 1024 + 1 * (y 0).val = t.val * 1024 + (y 0).val; omega
  · show win0_3.index t (1 : Fin 2) * 1024 + 1 * (y 1).val = (y 1).val; omega

/-- An index of the result array is in point `t`'s block iff each coordinate is in the block's range on its axis. -/
theorem mem_blk (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- Every index of the result array is in the block of the point its row names. -/
theorem cover (i : S16384x1024.Idx) :
    ∃ t : Fin cfg0.N, (cfg0.win 3).flush t = true ∧ i ∈ ((cfg0.win 3).blk t).view.set := by
  have hN : grid0.N = 16 := N_0
  have hi0 : (i 0).val < 16384 := (i 0).isLt
  have hi1 : (i 1).val < 1024 := (i 1).isLt
  have ht : (i 0).val / 1024 < grid0.N := by omega
  refine ⟨⟨(i 0).val / 1024, ht⟩, flush0_3 _, ?_⟩
  rw [mem_blk]
  obtain ⟨-, -, -, -, -, -, e30, e31⟩ := index_facts ⟨(i 0).val / 1024, ht⟩
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e30]
    show (i 0).val / 1024 * 1024 ≤ (i 0).val ∧ (i 0).val < (i 0).val / 1024 * 1024 + 1024
    omega
  | ⟨1, _⟩ =>
    show win0_3.index ⟨(i 0).val / 1024, ht⟩ (1 : Fin 2) * 1024 ≤ (i 1).val
      ∧ (i 1).val < win0_3.index ⟨(i 0).val / 1024, ht⟩ (1 : Fin 2) * 1024 + 1024
    rw [e31]
    omega

/-- THE RESULT ARRAY after the run is the score array of the two arguments. -/
theorem final (c : Dev nD) : (dats m 0 c).arrAt 3 cfg0.N
    = scores (m ((c : Thread nD τ).loc main_arg0)) (m ((c : Thread nD τ).loc main_arg1)) :=
  (dats m 0 c).arrAt_eq_of_cover 3 _ (fun t _ => flushed_eq m c t) cover

/-- The kernel's run: it ends with the result array at the scores, the arguments unchanged. -/
theorem run : θ_run defs (onTc (τ := τ) (main (F := Ideal))) ⟨m, fun _ => 0, ρ⟩ fun r => ∀ c : Dev nD,
      r.2.mem ((c : Thread nD τ).loc main_v5)
        = scores (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.YatScore.Kernel

end
-- ==== Proof.RefScore.lean ====
/-
  The reference computes the score array.

  Read one operation at a time, the reference's result at `(i, j)` is the quotient of `d · d` by
  `((0 + ‖x_i‖²) + (0 + ‖p_j‖²) − 2 · d) + ε`, where `d` is its contraction of the two arrays over the shared axis and
  each squared norm is its row sum started from the zero word. The zero word is the extended real `0`, so this is
  the score of sample `i` against prototype `j`.
-/
import proofs.«144226_j34213709480382_2_alg».proof.Proof.Gen.ReferenceIdeal.Read
import proofs.«144226_j34213709480382_2_alg».proof.Proof.Score

noncomputable section

open scoped BigOperators

namespace Cert.YatScore.Ref

open Cert.ReferenceIdeal Cert.ReferenceIdeal.Read Idealize.ShloMosaic Idealize.ShloMosaic.ValueIdx

/-- The contraction reads sample row `i` … -/
theorem lidx_dot (i : Fin 16384) (j : Fin 1024) (k : Fin 1024) : lidx_main_v0 (ix2 i j) k = ix2 i k :=
  funext fun a => Fin.ext (by match a with | ⟨0, _⟩ => rfl | ⟨1, _⟩ => rfl)

/-- … against prototype row `j`. -/
theorem ridx_dot (i : Fin 16384) (j : Fin 1024) (k : Fin 1024) : ridx_main_v0 (ix2 i j) k = ix2 j k :=
  funext fun a => Fin.ext (by match a with | ⟨0, _⟩ => rfl | ⟨1, _⟩ => rfl)

/-- The sample's squared norm, kept as a column and spread along the row, is read at `(i, k)`. -/
theorem idx_sampleSq (i : Fin 16384) (j : Fin 1024) (k : Fin 1024) :
    idx_main_v2 (idx_main_v3 (idx_main_v7 (ix2 i j))) k = ix2 i k :=
  funext fun a => Fin.ext (by match a with | ⟨0, _⟩ => rfl | ⟨1, _⟩ => rfl)

/-- The prototype's squared norm, kept as a row and spread down the column, is read at `(j, k)`. -/
theorem idx_protoSq (i : Fin 16384) (j : Fin 1024) (k : Fin 1024) :
    idx_main_v5 (idx_main_v6 (idx_main_v8 (ix2 i j))) k = ix2 j k :=
  funext fun a => Fin.ext (by match a with | ⟨0, _⟩ => rfl | ⟨1, _⟩ => rfl)

/-- The reference's result is the score array. -/
theorem result_eq (x : (⟨S16384x1024, .f32⟩ : BufTy).Contents (Elt Ideal)) (p : (⟨S1024x1024, .f32⟩ : BufTy).Contents (Elt Ideal)) :
    val_main_v16 (F := Ideal) x p = scores x p := by
  funext ij
  obtain ⟨i, j, rfl⟩ : ∃ (i : Fin 16384) (j : Fin 1024), ij = ix2 i j := ⟨ij 0, ij 1, eq_ix2 ij⟩
  rw [scores_apply, val_main_v16_apply, val_main_v13_apply, val_main_v15_apply, val_main_v12_apply, val_main_v14_apply,
    val_main_v9_apply, val_main_v11_apply, val_main_v10_apply, val_main_v7_apply, val_main_v8_apply, val_main_v3_apply,
    val_main_v6_apply, val_main_v2_apply, val_main_v5_apply, val_main_v0_apply]
  simp only [val_main_v1_apply, val_main_v4_apply, val_main_cst_apply, val_main_cst_0_apply, val_main_cst_1_apply,
    val_main_cst_2_apply, lidx_dot, ridx_dot, idx_sampleSq, idx_protoSq, Ideal.ofBits_def, Ideal.mulf_def, Ideal.addf_def,
    Ideal.subf_def, Ideal.hostDivf_def, Ideal.ofBits_zero_f32, zero_add]
  rfl

end Cert.YatScore.Ref

end
-- ==== Proof.lean ====
/-
  The kernel computes, for every sample `x_i` (16384 rows of 1024 coordinates) and prototype `p_j` (1024 rows), the score

      ⟨x_i, p_j⟩² / ((‖x_i‖² + ‖p_j‖² − 2 · ⟨x_i, p_j⟩) + ε)

  and so does the reference; on the extended reals the two results are the same array (`Proof/Score.lean`: `scores`).

  The kernel side. The host prepares the prototypes with their float format narrowed — the same extended reals — and the
  row of prototype squared norms (`Proof/EntryArrays.lean`). Each of the 16 grid points holds 1024 sample rows; its
  matrix product contracts a sample row with a prototype row over the 1024 shared coordinates, its lane sum of squares is
  the sample's squared norm, and what it stores at `(a, b)` is the score's quotient (`Proof/BodyScore.lean`). Point `t`
  writes rows `1024 t … 1024 t + 1023` of the result, the 16 blocks cover it, and the result array ends holding the
  scores (`Proof/KernelScore.lean`, over the generated frame run).

  The reference side. Read one operation at a time, its contraction is the same inner product, its two row sums started
  from the zero word are the two squared norms, and its literals `2` and `ε` are the kernel's words
  (`Proof/RefScore.lean`, over the generated run of the reference).

  Both sides group the expression the same way, so no law of arithmetic joins them beyond `0 + s = s`; the precondition
  that the inputs are finite is not used. The three frames are the generated ones; the idealization rewrote no operation.
-/
import proofs.«144226_j34213709480382_2_alg».proof.Defs
import proofs.«144226_j34213709480382_2_alg».proof.Proof.Gen.Kernel
import proofs.«144226_j34213709480382_2_alg».proof.Proof.Gen.Kernel.Skeleton
import proofs.«144226_j34213709480382_2_alg».proof.Proof.Gen.Kernel.Launch
import proofs.«144226_j34213709480382_2_alg».proof.Proof.Gen.Kernel.Points
import proofs.«144226_j34213709480382_2_alg».proof.Proof.Gen.Kernel.Frame
import proofs.«144226_j34213709480382_2_alg».proof.Proof.Gen.KernelIdeal
import proofs.«144226_j34213709480382_2_alg».proof.Proof.Gen.KernelIdeal.Skeleton
import proofs.«144226_j34213709480382_2_alg».proof.Proof.Gen.KernelIdeal.Launch
import proofs.«144226_j34213709480382_2_alg».proof.Proof.Gen.KernelIdeal.Points
import proofs.«144226_j34213709480382_2_alg».proof.Proof.Gen.KernelIdeal.Frame
import proofs.«144226_j34213709480382_2_alg».proof.Proof.Gen.KernelIdeal.Value
import proofs.«144226_j34213709480382_2_alg».proof.Proof.Gen.ReferenceIdeal
import proofs.«144226_j34213709480382_2_alg».proof.Proof.Gen.ReferenceIdeal.Run
import proofs.«144226_j34213709480382_2_alg».proof.Proof.Gen.ReferenceIdeal.Read
import proofs.«144226_j34213709480382_2_alg».proof.Proof.Gen.Pre_finite_inputs
import proofs.«144226_j34213709480382_2_alg».proof.Proof.KernelScore
import proofs.«144226_j34213709480382_2_alg».proof.Proof.RefScore
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the samples and the prototypes, the kernel and the reference both end with the score
    array of those two arguments. -/
theorem algebraic : Cert.algebraic_KernelIdeal_ReferenceIdeal := by
  intro m ρ m' ρ' _ hagree
  refine ⟨fun c => Cert.YatScore.scores (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.YatScore.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.YatScore.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
